-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64 : Shape := ⟨1, ![64]⟩
abbrev S64x48 : Shape := ⟨2, ![64, 48]⟩
abbrev S48 : Shape := ⟨1, ![48]⟩
abbrev S48x48 : Shape := ⟨2, ![48, 48]⟩
abbrev S48x1 : Shape := ⟨2, ![48, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x48 : S_.BroadcastsInDim S64x48 (![] : Fin 0 → Fin S64x48.rank)
  reducesTo_S64x48_S_d0_1 : S64x48.ReducesTo [0, 1] S_
  bcast_S_S48 : S_.BroadcastsInDim S48 (![] : Fin 0 → Fin S48.rank)
  reducesTo_S48_S_d0 : S48.ReducesTo [0] S_
  bcast_S_S48x48 : S_.BroadcastsInDim S48x48 (![] : Fin 0 → Fin S48x48.rank)
  reducesTo_S48x48_S_d0_1 : S48x48.ReducesTo [0, 1] S_
  bcast_S_S48x1 : S_.BroadcastsInDim S48x1 (![] : Fin 0 → Fin S48x1.rank)
  reducesTo_S48x1_S_d0_1 : S48x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S48 .f32) (main_arg7 : FVec F S48x1 .f32) (main_arg8 : FVec F S1 .f32) (main_v13 : IVec S_ 1) (main_v16 : IVec S48x48 1) : IVec S_ 1 :=
  let main_c_5 : IVec S_ 1 := constantI S_ 1 1#1
  let main_v17 : IVec S_ 1 := (fun x v => Host.reduce IntOp.andi x v reducesTo_S48x48_S_d0_1 h_S_) main_v16 main_c_5
  let main_v18 : IVec S_ 1 := andi main_v13 main_v17
  let main_v19 : FVec F S48 .f32 := Host.absf main_arg6
  let main_cst_6 : FVec F S_ .f32 := constant S_ .f32 0x7F800000#32
  let main_v20 : FVec F S48 .f32 := broadcastInDim S48 ![] bcast_S_S48 main_cst_6
  let main_v21 : IVec S48 1 := cmpf .olt main_v19 main_v20
  let main_c_7 : IVec S_ 1 := constantI S_ 1 1#1
  let main_v22 : IVec S_ 1 := (fun x v => Host.reduce IntOp.andi x v reducesTo_S48_S_d0 h_S_) main_v21 main_c_7
  let main_v23 : IVec S_ 1 := andi main_v18 main_v22
  let main_v24 : FVec F S48x1 .f32 := Host.absf main_arg7
  let main_cst_8 : FVec F S_ .f32 := constant S_ .f32 0x7F800000#32
  let main_v25 : FVec F S48x1 .f32 := broadcastInDim S48x1 ![] bcast_S_S48x1 main_cst_8
  let main_v26 : IVec S48x1 1 := cmpf .olt main_v24 main_v25
  let main_c_9 : IVec S_ 1 := constantI S_ 1 1#1
  let main_v27 : IVec S_ 1 := (fun x v => Host.reduce IntOp.andi x v reducesTo_S48x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x3200000 32) (main_arg2 : IVec S64 32) (main_arg3 : FVec F S64x48 .f32) (main_arg4 : FVec F S48 .f32) (main_arg5 : FVec F S48x48 .f32) (main_arg6 : FVec F S48 .f32) (main_arg7 : FVec F S48x1 .f32) (main_arg8 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x48 .f32 := Host.absf main_arg3
  let main_cst_0 : FVec F S_ .f32 := constant S_ .f32 0x7F800000#32
  let main_v5 : FVec F S64x48 .f32 := broadcastInDim S64x48 ![] bcast_S_S64x48 main_cst_0
  let main_v6 : IVec S64x48 1 := cmpf .olt main_v4 main_v5
  let main_c_1 : IVec S_ 1 := constantI S_ 1 1#1
  let main_v7 : IVec S_ 1 := (fun x v => Host.reduce IntOp.andi x v reducesTo_S64x48_S_d0_1 h_S_) main_v6 main_c_1
  let main_v8 : IVec S_ 1 := andi main_v3 main_v7
  let main_v9 : FVec F S48 .f32 := Host.absf main_arg4
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48x48 .f32 := Host.absf main_arg5
  let main_cst_4 : FVec F S_ .f32 := constant S_ .f32 0x7F800000#32
  let main_v15 : FVec F S48x48 .f32 := broadcastInDim S48x48 ![] bcast_S_S48x48 main_cst_4
  let main_v16 : IVec S48x48 1 := cmpf .olt main_v14 main_v15
  fn_part1 (F := F) main_arg6 main_arg7 main_arg8 main_v13 main_v16
-- ==== Kernel.lean ====
abbrev S100000x64 : Shape := ⟨2, ![100000, 64]⟩
abbrev S2x3200000 : Shape := ⟨2, ![2, 3200000]⟩
abbrev S64 : Shape := ⟨1, ![64]⟩
abbrev S64x48 : Shape := ⟨2, ![64, 48]⟩
abbrev S48 : Shape := ⟨1, ![48]⟩
abbrev S48x48 : Shape := ⟨2, ![48, 48]⟩
abbrev S48x1 : Shape := ⟨2, ![48, 1]⟩
abbrev S1 : Shape := ⟨1, ![1]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x48 : Shape := ⟨2, ![100000, 48]⟩
abbrev S10000x64 : Shape := ⟨2, ![10000, 64]⟩
abbrev S10000x48 : Shape := ⟨2, ![10000, 48]⟩
abbrev S3300000x48 : Shape := ⟨2, ![3300000, 48]⟩
abbrev S1x48 : Shape := ⟨2, ![1, 48]⟩
abbrev S64x1 : Shape := ⟨2, ![64, 1]⟩
abbrev S1x1 : Shape := ⟨2, ![1, 1]⟩

abbrev nBuf : Space → Nat
  | .hbm => 119
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64, .i32⟩
  | .hbm, ⟨3, _⟩ => ⟨S64x48, .f32⟩
  | .hbm, ⟨4, _⟩ => ⟨S48, .f32⟩
  | .hbm, ⟨5, _⟩ => ⟨S48x48, .f32⟩
  | .hbm, ⟨6, _⟩ => ⟨S48, .f32⟩
  | .hbm, ⟨7, _⟩ => ⟨S48x1, .f32⟩
  | .hbm, ⟨8, _⟩ => ⟨S1, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S3300000, .i32⟩
  | .hbm, ⟨16, _⟩ => ⟨S_, .f32⟩
  | .hbm, ⟨17, _⟩ => ⟨S100000, .f32⟩
  | .hbm, ⟨18, _⟩ => ⟨S_, .i32⟩
  | .hbm, ⟨19, _⟩ => ⟨S3300000, .i32⟩
  | .hbm, ⟨20, _⟩ => ⟨S3300000, .i1⟩
  | .hbm, ⟨21, _⟩ => ⟨S_, .i32⟩
  | .hbm, ⟨22, _⟩ => ⟨S3300000, .i32⟩
  | .hbm, ⟨23, _⟩ => ⟨S3300000, .i32⟩
  | .hbm, ⟨24, _⟩ => ⟨S3300000, .i32⟩
  | .hbm, ⟨25, _⟩ => ⟨S3300000x1, .i32⟩
  | .hbm, ⟨26, _⟩ => ⟨S_, .f32⟩
  | .hbm, ⟨27, _⟩ => ⟨S3300000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000, .f32⟩
  | .hbm, ⟨56, _⟩ => ⟨S100000x48, .f32⟩
  | .hbm, ⟨57, _⟩ => ⟨S_, .i32⟩
  | .hbm, ⟨58, _⟩ => ⟨S3300000, .i32⟩
  | .hbm, ⟨59, _⟩ => ⟨S3300000, .i1⟩
  | .hbm, ⟨60, _⟩ => ⟨S_, .i32⟩
  | .hbm, ⟨61, _⟩ => ⟨S3300000, .i32⟩
  | .hbm, ⟨62, _⟩ => ⟨S3300000, .i32⟩
  | .hbm, ⟨63, _⟩ => ⟨S3300000, .i32⟩
  | .hbm, ⟨64, _⟩ => ⟨S3300000x1, .i32⟩
  | .hbm, ⟨65, _⟩ => ⟨S3300000x48, .f32⟩
  | .hbm, ⟨66, _⟩ => ⟨S3300000x1, .f32⟩
  | .hbm, ⟨67, _⟩ => ⟨S3300000x48, .f32⟩
  | .hbm, ⟨68, _⟩ => ⟨S3300000x48, .f32⟩
  | .hbm, ⟨69, _⟩ => ⟨S_, .f32⟩
  | .hbm, ⟨70, _⟩ => ⟨S100000x48, .f32⟩
  | .hbm, ⟨71, _⟩ => ⟨S3300000x1, .i32⟩
  | .hbm, ⟨72, _⟩ => ⟨S100000x48, .f32⟩
  | .hbm, ⟨73, _⟩ => ⟨S1x48, .f32⟩
  | .hbm, ⟨74, _⟩ => ⟨S100000x48, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x48, .f32⟩
  | .hbm, ⟨84, _⟩ => ⟨S3300000x1, .f32⟩
  | .hbm, ⟨85, _⟩ => ⟨S3300000x48, .f32⟩
  | .hbm, ⟨86, _⟩ => ⟨S3300000x48, .f32⟩
  | .hbm, ⟨87, _⟩ => ⟨S_, .f32⟩
  | .hbm, ⟨88, _⟩ => ⟨S100000x48, .f32⟩
  | .hbm, ⟨89, _⟩ => ⟨S3300000x1, .i32⟩
  | .hbm, ⟨90, _⟩ => ⟨S100000x48, .f32⟩
  | .hbm, ⟨91, _⟩ => ⟨S_, .i32⟩
  | .hbm, ⟨92, _⟩ => ⟨S64, .i32⟩
  | .hbm, ⟨93, _⟩ => ⟨S64, .i1⟩
  | .hbm, ⟨94, _⟩ => ⟨S_, .i32⟩
  | .hbm, ⟨95, _⟩ => ⟨S64, .i32⟩
  | .hbm, ⟨96, _⟩ => ⟨S64, .i32⟩
  | .hbm, ⟨97, _⟩ => ⟨S64, .i32⟩
  | .hbm, ⟨98, _⟩ => ⟨S64x1, .i32⟩
  | .hbm, ⟨99, _⟩ => ⟨S64x48, .f32⟩
  | .hbm, ⟨100, _⟩ => ⟨S1x48, .f32⟩
  | .hbm, ⟨101, _⟩ => ⟨S64x48, .f32⟩
  | .hbm, ⟨102, _⟩ => ⟨S64x48, .f32⟩
  | .hbm, ⟨103, _⟩ => ⟨S_, .f32⟩
  | .hbm, ⟨104, _⟩ => ⟨S64x48, .f32⟩
  | .hbm, ⟨105, _⟩ => ⟨S64x48, .f32⟩
  | .hbm, ⟨106, _⟩ => ⟨S64x1, .f32⟩
  | .hbm, ⟨107, _⟩ => ⟨S1x1, .f32⟩
  | .hbm, ⟨108, _⟩ => ⟨S64x1, .f32⟩
  | .hbm, ⟨109, _⟩ => ⟨S64x1, .f32⟩
  | .hbm, ⟨110, _⟩ => ⟨S64x1, .f32⟩
  | .hbm, ⟨111, _⟩ => ⟨S64x1, .f32⟩
  | .hbm, ⟨112, _⟩ => ⟨S_, .f32⟩
  | .hbm, ⟨113, _⟩ => ⟨S64x1, .f32⟩
  | .hbm, ⟨114, _⟩ => ⟨S64x1, .f32⟩
  | .hbm, ⟨115, _⟩ => ⟨S_, .f32⟩
  | .hbm, ⟨116, _⟩ => ⟨S64x1, .f32⟩
  | .hbm, ⟨117, _⟩ => ⟨S64x1, .f32⟩
  | .hbm, ⟨118, _⟩ => ⟨S64, .f32⟩
  | .local _ .vmem, ⟨0, _⟩ => ⟨S10000x64, .f32⟩
  | .local _ .vmem, ⟨1, _⟩ => ⟨S10000x64, .f32⟩
  | .local _ .vmem, ⟨2, _⟩ => ⟨S64x48, .f32⟩
  | .local _ .vmem, ⟨3, _⟩ => ⟨S10000x48, .f32⟩
  | .local _ .vmem, ⟨4, _⟩ => ⟨S10000x48, .f32⟩
  | .local _ .vmem, ⟨5, _⟩ => ⟨S10000x48, .f32⟩
  | .local _ .vmem, ⟨6, _⟩ => ⟨S10000x48, .f32⟩
  | .local _ .vmem, ⟨7, _⟩ => ⟨S1x48, .f32⟩
  | .local _ .vmem, ⟨8, _⟩ => ⟨S48x48, .f32⟩
  | .local _ .vmem, ⟨9, _⟩ => ⟨S10000x48, .f32⟩
  | .local _ .vmem, ⟨10, _⟩ => ⟨S10000x48, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S48x48 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x48 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x48_S64x48_0_0 : ∀ a, (![0, 0] : Fin 2 → Nat) a + S64x48.size a ≤ S64x48.size a
  h_S64x48 : 0 < S64x48.numel
  inb_S10000x48_S10000x48_0_0 : ∀ a, (![0, 0] : Fin 2 → Nat) a + S10000x48.size a ≤ S10000x48.size a
  h_S10000x48 : 0 < S10000x48.numel
  bcast_S3300000x1_S3300000x48_0_1 : S3300000x1.BroadcastsInDim S3300000x48 (![0, 1] : Fin 2 → Fin S3300000x48.rank)
  bcast_S_S100000x48 : S_.BroadcastsInDim S100000x48 (![] : Fin 0 → Fin S100000x48.rank)
  shapeCasts_S48_S1x48 : S48.ShapeCasts S1x48
  shapeCasts_S10000x48_S10000x48 : S10000x48.ShapeCasts S10000x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S10000x48 : S1x48.Broadcasts S10000x48
  inb_S48x48_S48x48_0_0 : ∀ a, (![0, 0] : Fin 2 → Nat) a + S48x48.size a ≤ S48x48.size a
  h_S48x48 : 0 < S48x48.numel
  bcast_S_S64 : S_.BroadcastsInDim S64 (![] : Fin 0 → Fin S64.rank)
  bcast_S64_S64x1_0 : S64.BroadcastsInDim S64x1 (![0] : Fin 1 → Fin S64x1.rank)
  bcast_S48_S1x48_1 : S48.BroadcastsInDim S1x48 (![1] : Fin 1 → Fin S1x48.rank)
  bcast_S1x48_S64x48_0_1 : S1x48.BroadcastsInDim S64x48 (![0, 1] : Fin 2 → Fin S64x48.rank)
  bcast_S_S64x48 : S_.BroadcastsInDim S64x48 (![] : Fin 0 → Fin S64x48.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  shapeCasts_S64x1_S64 : S64x1.ShapeCasts S64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x64_S64x48_S10000x48_1_0_0_1_n_n_wf : DotDims.WF S10000x64 S64x48 S10000x48 [1] [0] [0] [1] [] []
  gather_S100000x48_S3300000x1_S3300000x48_1_0_n_n_0_1_148_wf : GatherDims.WF S100000x48 S3300000x1 S3300000x48 [1] [0] [] [0] [] 1 ![1, 48]
  scatter_S100000x48_S3300000x1_S3300000x48_1_0_0_1_wf : ScatterDims.WF S100000x48 S3300000x1 S3300000x48 [1] [0] [0] 1
  dot_S10000x48_S48x48_S10000x48_1_0_0_1_n_n_wf : DotDims.WF S10000x48 S48x48 S10000x48 [1] [0] [0] [1] [] []
  gather_S100000x48_S64x1_S64x48_1_0_n_n_0_1_148_wf : GatherDims.WF S100000x48 S64x1 S64x48 [1] [0] [] [0] [] 1 ![1, 48]
  dot_S64x48_S48x1_S64x1_1_0_0_1_n_n_wf : DotDims.WF S64x48 S48x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x48.size a ≤ S64x48.size a
  hwx0_1 : ∀ i : grid0.Coords, EltTy.bits .f32 = 32 ∨ (Rect.block (s := S64x48) S64x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x48.size a ≤ S100000x48.size a
  hwx0_2 : ∀ i : grid0.Coords, EltTy.bits .f32 = 32 ∨ (Rect.block (s := S100000x48) S10000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x48.size a ≤ S100000x48.size a
  hwx1_0 : ∀ i : grid1.Coords, EltTy.bits .f32 = 32 ∨ (Rect.block (s := S100000x48) S10000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x48.size a ≤ S1x48.size a
  hwx1_1 : ∀ i : grid1.Coords, EltTy.bits .f32 = 32 ∨ (Rect.block (s := S1x48) S1x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S48x48.size a ≤ S48x48.size a
  hwx1_2 : ∀ i : grid1.Coords, EltTy.bits .f32 = 32 ∨ (Rect.block (s := S48x48) S48x48.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x48.size a ≤ S100000x48.size a
  hwx1_3 : ∀ i : grid1.Coords, EltTy.bits .f32 = 32 ∨ (Rect.block (s := S100000x48) S10000x48.size (cc1_transform_3 i) (hinb1_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x64_S64x48_S10000x48_1_0_0_1_n_n : DotDims S10000x64 S64x48 S10000x48 where
  lhsContracting := [1]
  rhsContracting := [0]
  lhsNonContracting := [0]
  rhsNonContracting := [1]
  lhsBatch := []
  rhsBatch := []
  wf := dot_S10000x64_S64x48_S10000x48_1_0_0_1_n_n_wf
def gather_S100000x48_S3300000x1_S3300000x48_1_0_n_n_0_1_148 : GatherDims S100000x48 S3300000x1 S3300000x48 where
  offsetDims := [1]
  collapsedSliceDims := [0]
  operandBatchingDims := []
  startIndicesBatchingDims := []
  startIndexMap := [0]
  indexVectorDim := 1
  sliceSizes := ![1, 48]
  wf := gather_S100000x48_S3300000x1_S3300000x48_1_0_n_n_0_1_148_wf
def scatter_S100000x48_S3300000x1_S3300000x48_1_0_0_1 : ScatterDims S100000x48 S3300000x1 S3300000x48 where
  updateWindowDims := [1]
  insertedWindowDims := [0]
  scatterDimsToOperandDims := [0]
  indexVectorDim := 1
  wf := scatter_S100000x48_S3300000x1_S3300000x48_1_0_0_1_wf
def dot_S10000x48_S48x48_S10000x48_1_0_0_1_n_n : DotDims S10000x48 S48x48 S10000x48 where
  lhsContracting := [1]
  rhsContracting := [0]
  lhsNonContracting := [0]
  rhsNonContracting := [1]
  lhsBatch := []
  rhsBatch := []
  wf := dot_S10000x48_S48x48_S10000x48_1_0_0_1_n_n_wf
def gather_S100000x48_S64x1_S64x48_1_0_n_n_0_1_148 : GatherDims S100000x48 S64x1 S64x48 where
  offsetDims := [1]
  collapsedSliceDims := [0]
  operandBatchingDims := []
  startIndicesBatchingDims := []
  startIndexMap := [0]
  indexVectorDim := 1
  sliceSizes := ![1, 48]
  wf := gather_S100000x48_S64x1_S64x48_1_0_n_n_0_1_148_wf
def dot_S64x48_S48x1_S64x1_1_0_0_1_n_n : DotDims S64x48 S48x1 S64x1 where
  lhsContracting := [1]
  rhsContracting := [0]
  lhsNonContracting := [0]
  rhsNonContracting := [1]
  lhsBatch := []
  rhsBatch := []
  wf := dot_S64x48_S48x1_S64x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S48x48.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S10000x48.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64 : Shape := ⟨1, ![64]⟩
abbrev S64x48 : Shape := ⟨2, ![64, 48]⟩
abbrev S48 : Shape := ⟨1, ![48]⟩
abbrev S48x48 : Shape := ⟨2, ![48, 48]⟩
abbrev S48x1 : Shape := ⟨2, ![48, 1]⟩
abbrev S1 : Shape := ⟨1, ![1]⟩
abbrev S1x3200000 : Shape := ⟨2, ![1, 3200000]⟩
abbrev S3200000 : Shape := ⟨1, ![3200000]⟩
abbrev S100000x48 : Shape := ⟨2, ![100000, 48]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x48 : Shape := ⟨2, ![3300000, 48]⟩
abbrev S1x48 : Shape := ⟨2, ![1, 48]⟩
abbrev S64x1 : Shape := ⟨2, ![64, 1]⟩
abbrev S1x1 : Shape := ⟨2, ![1, 1]⟩

abbrev nBuf : Space → Nat
  | .hbm => 167
  | .vmem => 0
  | .smem => 0
  | _ => 0

abbrev hbmTy0_0 (i : Nat) : BufTy := match i % 128 with
  | 0 => ⟨S100000x64, .f32⟩
  | 1 => ⟨S2x3200000, .i32⟩
  | 2 => ⟨S64, .i32⟩
  | 3 => ⟨S64x48, .f32⟩
  | 4 => ⟨S48, .f32⟩
  | 5 => ⟨S48x48, .f32⟩
  | 6 => ⟨S48, .f32⟩
  | 7 => ⟨S48x1, .f32⟩
  | 8 => ⟨S1, .f32⟩
  | 9 => ⟨S1x3200000, .i32⟩
  | 10 => ⟨S3200000, .i32⟩
  | 11 => ⟨S1x3200000, .i32⟩
  | 12 => ⟨S3200000, .i32⟩
  | 13 => ⟨S100000x48, .f32⟩
  | 14 => ⟨S100000, .i32⟩
  | 15 => ⟨S3300000, .i32⟩
  | 16 => ⟨S3300000, .i32⟩
  | 17 => ⟨S_, .f32⟩
  | 18 => ⟨S100000, .f32⟩
  | 19 => ⟨S_, .i32⟩
  | 20 => ⟨S3300000, .i32⟩
  | 21 => ⟨S3300000, .i1⟩
  | 22 => ⟨S_, .i32⟩
  | 23 => ⟨S3300000, .i32⟩
  | 24 => ⟨S3300000, .i32⟩
  | 25 => ⟨S3300000, .i32⟩
  | 26 => ⟨S3300000x1, .i32⟩
  | 27 => ⟨S_, .f32⟩
  | 28 => ⟨S3300000, .f32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S_, .i32⟩
  | 58 => ⟨S3300000, .i32⟩
  | 59 => ⟨S3300000, .i1⟩
  | 60 => ⟨S_, .i32⟩
  | 61 => ⟨S3300000, .i32⟩
  | 62 => ⟨S3300000, .i32⟩
  | 63 => ⟨S3300000, .i32⟩
  | 64 => ⟨S3300000x1, .i32⟩
  | 65 => ⟨S3300000x48, .f32⟩
  | 66 => ⟨S3300000x1, .f32⟩
  | 67 => ⟨S3300000x48, .f32⟩
  | 68 => ⟨S3300000x48, .f32⟩
  | 69 => ⟨S_, .f32⟩
  | 70 => ⟨S100000x48, .f32⟩
  | 71 => ⟨S3300000x1, .i32⟩
  | 72 => ⟨S100000x48, .f32⟩
  | 73 => ⟨S1x48, .f32⟩
  | 74 => ⟨S100000x48, .f32⟩
  | 75 => ⟨S100000x48, .f32⟩
  | 76 => ⟨S_, .f32⟩
  | 77 => ⟨S100000x48, .f32⟩
  | 78 => ⟨S100000x48, .f32⟩
  | 79 => ⟨S100000x48, .f32⟩
  | 80 => ⟨S100000, .i32⟩
  | 81 => ⟨S3300000, .i32⟩
  | 82 => ⟨S3300000, .i32⟩
  | 83 => ⟨S_, .f32⟩
  | 84 => ⟨S100000, .f32⟩
  | 85 => ⟨S_, .i32⟩
  | 86 => ⟨S3300000, .i32⟩
  | 87 => ⟨S3300000, .i1⟩
  | 88 => ⟨S_, .i32⟩
  | 89 => ⟨S3300000, .i32⟩
  | 90 => ⟨S3300000, .i32⟩
  | 91 => ⟨S3300000, .i32⟩
  | 92 => ⟨S3300000x1, .i32⟩
  | 93 => ⟨S_, .f32⟩
  | 94 => ⟨S3300000, .f32⟩
  | 95 => ⟨S100000, .f32⟩
  | 96 => ⟨S_, .f32⟩
  | 97 => ⟨S100000, .f32⟩
  | 98 => ⟨S100000, .i1⟩
  | 99 => ⟨S100000, .f32⟩
  | 100 => ⟨S_, .f32⟩
  | 101 => ⟨S_, .f32⟩
  | 102 => ⟨S100000, .f32⟩
  | 103 => ⟨S100000, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000, .f32⟩
  | 113 => ⟨S_, .i32⟩
  | 114 => ⟨S3300000, .i32⟩
  | 115 => ⟨S3300000, .i1⟩
  | 116 => ⟨S_, .i32⟩
  | 117 => ⟨S3300000, .i32⟩
  | 118 => ⟨S3300000, .i32⟩
  | 119 => ⟨S3300000, .i32⟩
  | 120 => ⟨S3300000x1, .i32⟩
  | 121 => ⟨S3300000, .f32⟩
  | 122 => ⟨S3300000, .f32⟩
  | 123 => ⟨S_, .i32⟩
  | 124 => ⟨S3300000, .i32⟩
  | 125 => ⟨S3300000, .i1⟩
  | 126 => ⟨S_, .i32⟩
  | 127 => ⟨S3300000, .i32⟩
  | _ => ⟨S100000x64, .f32⟩

abbrev hbmTy0_1 (i : Nat) : BufTy := match i % 128 with
  | 0 => ⟨S3300000, .i32⟩
  | 1 => ⟨S3300000, .i32⟩
  | 2 => ⟨S3300000x1, .i32⟩
  | 3 => ⟨S3300000x48, .f32⟩
  | 4 => ⟨S3300000x1, .f32⟩
  | 5 => ⟨S3300000x48, .f32⟩
  | 6 => ⟨S3300000x48, .f32⟩
  | 7 => ⟨S_, .f32⟩
  | 8 => ⟨S100000x48, .f32⟩
  | 9 => ⟨S3300000x1, .i32⟩
  | 10 => ⟨S100000x48, .f32⟩
  | 11 => ⟨S1x48, .f32⟩
  | 12 => ⟨S100000x48, .f32⟩
  | 13 => ⟨S100000x48, .f32⟩
  | 14 => ⟨S_, .f32⟩
  | 15 => ⟨S100000x48, .f32⟩
  | 16 => ⟨S100000x48, .f32⟩
  | 17 => ⟨S_, .i32⟩
  | 18 => ⟨S64, .i32⟩
  | 19 => ⟨S64, .i1⟩
  | 20 => ⟨S_, .i32⟩
  | 21 => ⟨S64, .i32⟩
  | 22 => ⟨S64, .i32⟩
  | 23 => ⟨S64, .i32⟩
  | 24 => ⟨S64x1, .i32⟩
  | 25 => ⟨S64x48, .f32⟩
  | 26 => ⟨S64x1, .f32⟩
  | 27 => ⟨S1x1, .f32⟩
  | 28 => ⟨S64x1, .f32⟩
  | 29 => ⟨S64x1, .f32⟩
  | 30 => ⟨S64x1, .f32⟩
  | 31 => ⟨S64x1, .f32⟩
  | 32 => ⟨S_, .f32⟩
  | 33 => ⟨S64x1, .f32⟩
  | 34 => ⟨S64x1, .f32⟩
  | 35 => ⟨S_, .f32⟩
  | 36 => ⟨S64x1, .f32⟩
  | 37 => ⟨S64x1, .f32⟩
  | 38 => ⟨S64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_cst : Ref sig .tc := ⟨.hbm, 76, rfl⟩
abbrev main_call1_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_cst_15 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_call2_v0 : Ref sig .tc := ⟨.hbm, 101, rfl⟩
abbrev main_call2_v1 : Ref sig .tc := ⟨.hbm, 102, rfl⟩
abbrev main_v69 : Ref sig .tc := ⟨.hbm, 103, rfl⟩
abbrev main_c_17 : Ref sig .tc := ⟨.hbm, 104, rfl⟩
abbrev main_v70 : Ref sig .tc := ⟨.hbm, 105, rfl⟩
abbrev main_v71 : Ref sig .tc := ⟨.hbm, 106, rfl⟩
abbrev main_c_18 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_19 : Ref sig .tc := ⟨.hbm, 113, rfl⟩
abbrev main_v77 : Ref sig .tc := ⟨.hbm, 114, rfl⟩
abbrev main_v78 : Ref sig .tc := ⟨.hbm, 115, rfl⟩
abbrev main_c_20 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_21 : Ref sig .tc := ⟨.hbm, 123, rfl⟩
abbrev main_v85 : Ref sig .tc := ⟨.hbm, 124, rfl⟩
abbrev main_v86 : Ref sig .tc := ⟨.hbm, 125, rfl⟩
abbrev main_c_22 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_23 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call3_cst : Ref sig .tc := ⟨.hbm, 142, rfl⟩
abbrev main_call3_v0 : Ref sig .tc := ⟨.hbm, 143, rfl⟩
abbrev main_v101 : Ref sig .tc := ⟨.hbm, 144, rfl⟩
abbrev main_c_24 : Ref sig .tc := ⟨.hbm, 145, rfl⟩
abbrev main_v102 : Ref sig .tc := ⟨.hbm, 146, rfl⟩
abbrev main_v103 : Ref sig .tc := ⟨.hbm, 147, rfl⟩
abbrev main_c_25 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_26 : Ref sig .tc := ⟨.hbm, 160, rfl⟩
abbrev main_v115 : Ref sig .tc := ⟨.hbm, 161, rfl⟩
abbrev main_v116 : Ref sig .tc := ⟨.hbm, 162, rfl⟩
abbrev main_cst_27 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x48_0_1 : S3300000x1.BroadcastsInDim S3300000x48 (![0, 1] : Fin 2 → Fin S3300000x48.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S_S64 : S_.BroadcastsInDim S64 (![] : Fin 0 → Fin S64.rank)
  bcast_S64_S64x1_0 : S64.BroadcastsInDim S64x1 (![0] : Fin 1 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  shapeCasts_S64x1_S64 : S64x1.ShapeCasts S64
  dot_S100000x64_S64x48_S100000x48_1_0_0_1_n_n_wf : DotDims.WF S100000x64 S64x48 S100000x48 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x48_S3300000x1_S3300000x48_1_0_n_n_0_1_148_wf : GatherDims.WF S100000x48 S3300000x1 S3300000x48 [1] [0] [] [0] [] 1 ![1, 48]
  scatter_S100000x48_S3300000x1_S3300000x48_1_0_0_1_wf : ScatterDims.WF S100000x48 S3300000x1 S3300000x48 [1] [0] [0] 1
  dot_S100000x48_S48x48_S100000x48_1_0_0_1_n_n_wf : DotDims.WF S100000x48 S48x48 S100000x48 [1] [0] [0] [1] [] []
  gather_S100000x48_S64x1_S64x48_1_0_n_n_0_1_148_wf : GatherDims.WF S100000x48 S64x1 S64x48 [1] [0] [] [0] [] 1 ![1, 48]
  dot_S64x48_S48x1_S64x1_1_0_0_1_n_n_wf : DotDims.WF S64x48 S48x1 S64x1 [1] [0] [0] [1] [] []

variable [Facts₀]

def dot_S100000x64_S64x48_S100000x48_1_0_0_1_n_n : DotDims S100000x64 S64x48 S100000x48 where
  lhsContracting := [1]
  rhsContracting := [0]
  lhsNonContracting := [0]
  rhsNonContracting := [1]
  lhsBatch := []
  rhsBatch := []
  wf := dot_S100000x64_S64x48_S100000x48_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x48_S3300000x1_S3300000x48_1_0_n_n_0_1_148 : GatherDims S100000x48 S3300000x1 S3300000x48 where
  offsetDims := [1]
  collapsedSliceDims := [0]
  operandBatchingDims := []
  startIndicesBatchingDims := []
  startIndexMap := [0]
  indexVectorDim := 1
  sliceSizes := ![1, 48]
  wf := gather_S100000x48_S3300000x1_S3300000x48_1_0_n_n_0_1_148_wf
def scatter_S100000x48_S3300000x1_S3300000x48_1_0_0_1 : ScatterDims S100000x48 S3300000x1 S3300000x48 where
  updateWindowDims := [1]
  insertedWindowDims := [0]
  scatterDimsToOperandDims := [0]
  indexVectorDim := 1
  wf := scatter_S100000x48_S3300000x1_S3300000x48_1_0_0_1_wf
def dot_S100000x48_S48x48_S100000x48_1_0_0_1_n_n : DotDims S100000x48 S48x48 S100000x48 where
  lhsContracting := [1]
  rhsContracting := [0]
  lhsNonContracting := [0]
  rhsNonContracting := [1]
  lhsBatch := []
  rhsBatch := []
  wf := dot_S100000x48_S48x48_S100000x48_1_0_0_1_n_n_wf
def gather_S100000x48_S64x1_S64x48_1_0_n_n_0_1_148 : GatherDims S100000x48 S64x1 S64x48 where
  offsetDims := [1]
  collapsedSliceDims := [0]
  operandBatchingDims := []
  startIndicesBatchingDims := []
  startIndexMap := [0]
  indexVectorDim := 1
  sliceSizes := ![1, 48]
  wf := gather_S100000x48_S64x1_S64x48_1_0_n_n_0_1_148_wf
def dot_S64x48_S48x1_S64x1_1_0_0_1_n_n : DotDims S64x48 S48x1 S64x1 where
  lhsContracting := [1]
  rhsContracting := [0]
  lhsNonContracting := [0]
  rhsNonContracting := [1]
  lhsBatch := []
  rhsBatch := []
  wf := dot_S64x48_S48x1_S64x1_1_0_0_1_n_n_wf

class Facts : Prop extends Facts₀ where

variable [Facts]
-- ==== Proof.KernelRun.lean ====
/-
  The idealized kernel's program is seven segments in a row: three stretches of host operations, the first matrix
  product as a pipelined region, a fourth stretch, the second (bias, relu, product) region, and a last stretch that ends
  in the result. Each segment is entered from the buffer contents the one before left, so the contents at the end are a
  fold over the segments from the launch memory. Here that fold is read at the RESULT buffer as well as at the nine
  argument buffers: every weakly fair execution terminates, the result buffer holds what the fold leaves there, and the
  arguments are as launched. What the fold leaves at the result is computed in the modules that follow.
-/
import proofs.«140998_j61804579390070_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates; the result buffer ends at the last boundary's contents,
    each argument buffer as launched. -/
theorem run_last : θ_run defs (onTc (τ := τ) (main (F := F))) ⟨m, fun _ => 0, ρ⟩ (fun r => ∀ c : Dev nD,
      r.2.mem ((c.tc : Thread nD τ).loc main_v86) = W7 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v86 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.RunValue

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.Region0.lean ====
/-
  The first pallas_call computes x · W1 in ten row blocks: at grid point t it loads rows 10000·t … 10000·t + 9999 of
  x (all 64 columns) and the whole of W1, multiplies them on the matrix unit into a zero accumulator (the operands
  narrowed to bf16 first, which on the extended reals changes nothing) and writes the 10000 × 48 product back as rows
  10000·t … of the result. Entry (p, q) of block t is therefore the sum over k of x(10000·t + p, k) · W1(k, q), which
  is entry (10000·t + p, q) of the whole product x · W1; the ten blocks tile the result, so after the call the result
  array IS the product of the two arrays the call was entered with.
-/
import proofs.«140998_j61804579390070_2_alg».proof.Proof.Gen.KernelIdeal.Frame
import proofs.«140998_j61804579390070_2_alg».proof.Proof.LibMatDot
import Idealize.ShloMosaic.Lib.Pipeline.Value
import Idealize.ShloMosaic.Lib.ValueIdx
import Idealize.ShloMosaic.PureOps.Ideal.Laws

set_option maxRecDepth 16384

noncomputable section

namespace Cert.KernelIdeal.Product1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-- The block's product at (p, q), against the whole product at (r0 + p, q): when the left block holds rows r0 … of X and
    the right block is W, both are the sum over k of X(r0 + p, k) · W(k, q). -/
theorem block_entry (wf : DotDims.WF ⟨2, ![100000, 64]⟩ ⟨2, ![64, 48]⟩ ⟨2, ![100000, 48]⟩ [1] [0] [0] [1] [] [])
    (X : FVec Ideal ⟨2, ![100000, 64]⟩ .f32) (W : FVec Ideal ⟨2, ![64, 48]⟩ .f32)
    (x0 : Vec Ideal S10000x64 .f32) (x1 : Vec Ideal S64x48 .f32) (r0 : ℕ) (hr : r0 + 10000 ≤ 100000)
    (h0 : ∀ (p : Fin 10000) (k : Fin 64), x0 (ix2 p k) = X (ix2 ⟨r0 + p.val, by omega⟩ k))
    (h1 : ∀ (k : Fin 64) (q : Fin 48), x1 (ix2 k q) = W (ix2 k q))
    (p : Fin 10000) (q : Fin 48) :
    k0_pay1 (F := Ideal) x0 x1 (ix2 p q)
      = Host.dotGeneral (F := Ideal) (Cert.Lib.matDot wf) none X W (ix2 ⟨r0 + p.val, by omega⟩ q) := by
  unfold k0_pay1
  refine (Cert.Lib.matmul_plain_zero_apply (a := 10000) (K := 64) (b := 48) (φ₁ := .bf16) (φ₂ := .bf16)
    dot_S10000x64_S64x48_S10000x48_1_0_0_1_n_n_wf none (truncf .bf16 x0 bitsLt_bf16_f32) (truncf .bf16 x1 bitsLt_bf16_f32) p q).trans ?_
  refine Eq.trans ?_ (Cert.Lib.dotGeneral_plain_apply (φ₁ := .f32) (φ₂ := .f32) wf none .single X W ⟨r0 + p.val, by omega⟩ q).symm
  refine Finset.sum_congr rfl fun k _ => ?_
  show x0 (ix2 p k) * x1 (ix2 k q) = _
  rw [h0, h1]

/-- The product X · W of a 100000 × 64 array with a 64 × 48 one, as the host's dot_general states it. -/
abbrev product (wf : DotDims.WF ⟨2, ![100000, 64]⟩ ⟨2, ![64, 48]⟩ ⟨2, ![100000, 48]⟩ [1] [0] [0] [1] [] [])
    (X : FVec Ideal ⟨2, ![100000, 64]⟩ .f32) (W : FVec Ideal ⟨2, ![64, 48]⟩ .f32) : FVec Ideal ⟨2, ![100000, 48]⟩ .f32 :=
  Host.dotGeneral (F := Ideal) (Cert.Lib.matDot wf) none X W

/-! ## The ten blocks -/

/-- The printed index maps, decided over the grid: at point t the left operand's window is at row block t, column block 0;
    the right operand's window does not move; the result's window is at row block t, column block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- WHAT POINT t WRITES BACK is block t of the product of the two arrays the call was entered with. -/
theorem flushed_eq (wf : DotDims.WF ⟨2, ![100000, 64]⟩ ⟨2, ![64, 48]⟩ ⟨2, ![100000, 48]⟩ [1] [0] [0] [1] [] [])
    (c : Dev nD) (t : Fin cfg0.N) :
    (dat0 V c).flushed 2 t = ((cfg0.win 2).blk t).view.read (Elt Ideal)
      (product wf (V c main_arg0) (V c main_arg3)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x48) hz]
  obtain ⟨e00, e01, e10, e11, e20, e21⟩ := idx_facts t
  have ht : t.val < 10 := by have := t.isLt; have hN : cfg0.N = 10 := N_0; omega
  funext j
  obtain ⟨p, q, rfl⟩ : ∃ (p : Fin 10000) (q : Fin 48), j = ix2 p q := ⟨j 0, j 1, eq_ix2 j⟩
  refine (block_entry wf (V c main_arg0) (V c main_arg3) (iblk0 V c 0 t) (iblk0 V c 1 t) (t.val * 10000) (by omega) ?_ ?_ p q).trans ?_
  · intro p k
    show V c main_arg0 (((cfg0.win 0).blk t).view.emb (ix2 p k)) = V c main_arg0 _
    refine congrArg (V c main_arg0) (funext fun a => Fin.ext ?_)
    match a with
    | ⟨0, _⟩ => show win0_0.index t (0 : Fin 2) * 10000 + 1 * p.val = t.val * 10000 + p.val; rw [e00]; omega
    | ⟨1, _⟩ => show win0_0.index t (1 : Fin 2) * 64 + 1 * k.val = k.val; rw [e01]; omega
  · intro k q
    show V c main_arg3 (((cfg0.win 1).blk t).view.emb (ix2 k q)) = V c main_arg3 _
    refine congrArg (V c main_arg3) (funext fun a => Fin.ext ?_)
    match a with
    | ⟨0, _⟩ => show win0_1.index t (0 : Fin 2) * 64 + 1 * k.val = k.val; rw [e10]; omega
    | ⟨1, _⟩ => show win0_1.index t (1 : Fin 2) * 48 + 1 * q.val = q.val; rw [e11]; omega
  · show _ = product wf (V c main_arg0) (V c main_arg3) (((cfg0.win 2).blk t).view.emb (ix2 p q))
    refine congrArg (product wf (V c main_arg0) (V c main_arg3)) (funext fun a => Fin.ext ?_)
    match a with
    | ⟨0, _⟩ => show t.val * 10000 + p.val = win0_2.index t (0 : Fin 2) * 10000 + 1 * p.val; rw [e20]; omega
    | ⟨1, _⟩ => show q.val = win0_2.index t (1 : Fin 2) * 48 + 1 * q.val; rw [e21]; omega

/-- An index of the result is in point t's block iff each coordinate is in the block's range on its axis. -/
theorem mem_blk (t : Fin cfg0.N) (i : S100000x48.Idx) :
    i ∈ ((cfg0.win 2).blk t).view.set ↔ ∀ a : Fin 2, win0_2.index t a * S10000x48.size a ≤ (i a).val ∧ (i a).val < win0_2.index t a * S10000x48.size a + S10000x48.size a := by
  show i ∈ ((View.whole main_v35).slice (win0_2.rect t)).set ↔ _
  rw [View.set_slice_whole, Rect.mem_set_unit]
  exact Iff.rfl

/-- THE RESULT ARRAY after the call: the product of the arrays the call was entered with. Row r lies in the block of
    point r / 10000, so the ten blocks cover the array. -/
theorem array_eq (wf : DotDims.WF ⟨2, ![100000, 64]⟩ ⟨2, ![64, 48]⟩ ⟨2, ![100000, 48]⟩ [1] [0] [0] [1] [] [])
    (c : Dev nD) :
    (dat0 V c).arrAt 2 cfg0.N = product wf (V c main_arg0) (V c main_arg3) :=
  (dat0 V c).arrAt_eq_of_cover 2 _ (fun t _ => flushed_eq V wf c t) fun (i : S100000x48.Idx) => by
    have hN : cfg0.N = 10 := N_0
    have hi0 : (i 0).val < 100000 := (i 0).isLt
    have hi1 : (i 1).val < 48 := (i 1).isLt
    obtain ⟨t, ht⟩ : ∃ t : Fin cfg0.N, t.val = (i 0).val / 10000 := ⟨⟨(i 0).val / 10000, by rw [hN]; omega⟩, rfl⟩
    obtain ⟨-, -, -, -, e20, e21⟩ := idx_facts t
    refine ⟨t, flush0_2 t, ?_⟩
    rw [mem_blk]
    intro a
    match a with
    | ⟨0, _⟩ => show win0_2.index t (0 : Fin 2) * 10000 ≤ (i 0).val ∧ (i 0).val < win0_2.index t (0 : Fin 2) * 10000 + 10000; rw [e20, ht]; omega
    | ⟨1, _⟩ => show win0_2.index t (1 : Fin 2) * 48 ≤ (i 1).val ∧ (i 1).val < win0_2.index t (1 : Fin 2) * 48 + 48; rw [e21]; omega

end Cert.KernelIdeal.Product1

end
-- ==== Proof.Region1.lean ====
/-
  The second pallas_call computes relu(A + b) · W2 in ten row blocks, A the aggregated first layer (100000 × 48), b the
  bias as one 1 × 48 row, W2 48 × 48: at grid point t it loads rows 10000·t … 10000·t + 9999 of A, the bias row and the
  whole of W2, adds the bias row to every row of the block, takes the positive part, and multiplies by W2 on the matrix
  unit into a zero accumulator (the operands narrowed to bf16 first, which on the extended reals changes nothing). Entry
  (p, q) of block t is the sum over k of max(A(10000·t + p, k) + b(0, k), 0) · W2(k, q): entry (10000·t + p, q) of the
  product of the whole array relu(A + b) with W2. The ten blocks tile the result, so after the call the result array IS
  that product.
-/
import proofs.«140998_j61804579390070_2_alg».proof.Proof.Gen.KernelIdeal.Frame
import proofs.«140998_j61804579390070_2_alg».proof.Proof.LibMatDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Product2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

theorem hz : (![0, 0] : Fin 2 → Nat) = fun _ => 0 := funext fun a => by fin_cases a <;> rfl

/-- The bias row added to every row of A, then the positive part: max(A(r, k) + b(0, k), 0). -/
def biasRelu (A : FVec Ideal ⟨2, ![100000, 48]⟩ .f32) (B : FVec Ideal ⟨2, ![1, 48]⟩ .f32) : FVec Ideal ⟨2, ![100000, 48]⟩ .f32 :=
  fun i => FloatOps.maximumf (FloatOps.addf (A i) (B (ix2 (0 : Fin 1) ⟨(i 1).val, idx2_lt1 i⟩))) (Ideal.ofBits .f32 0x00000000#32)

theorem biasRelu_ix2 (A : FVec Ideal ⟨2, ![100000, 48]⟩ .f32) (B : FVec Ideal ⟨2, ![1, 48]⟩ .f32) (r : Fin 100000) (k : Fin 48) :
    biasRelu A B (ix2 r k) = FloatOps.maximumf (FloatOps.addf (A (ix2 r k)) (B (ix2 (0 : Fin 1) k))) (Ideal.ofBits .f32 0x00000000#32) := rfl

/-- The block's product at (p, q), against the whole product at (r0 + p, q): when the left block holds rows r0 … of A, the
    middle block is the bias row and the right block is W, both are the sum over k of
    max(A(r0 + p, k) + b(0, k), 0) · W(k, q). -/
theorem block_entry (wf : DotDims.WF ⟨2, ![100000, 48]⟩ ⟨2, ![48, 48]⟩ ⟨2, ![100000, 48]⟩ [1] [0] [0] [1] [] [])
    (A : FVec Ideal ⟨2, ![100000, 48]⟩ .f32) (B : FVec Ideal ⟨2, ![1, 48]⟩ .f32) (W : FVec Ideal ⟨2, ![48, 48]⟩ .f32)
    (x0 : Vec Ideal S10000x48 .f32) (x1 : Vec Ideal S1x48 .f32) (x2 : Vec Ideal S48x48 .f32) (r0 : ℕ) (hr : r0 + 10000 ≤ 100000)
    (h0 : ∀ (p : Fin 10000) (k : Fin 48), x0 (ix2 p k) = A (ix2 ⟨r0 + p.val, by omega⟩ k))
    (h1 : ∀ (k : Fin 48), x1 (ix2 (0 : Fin 1) k) = B (ix2 (0 : Fin 1) k))
    (h2 : ∀ (k : Fin 48) (q : Fin 48), x2 (ix2 k q) = W (ix2 k q))
    (p : Fin 10000) (q : Fin 48) :
    k1_pay1 (F := Ideal) x0 x1 x2 (ix2 p q)
      = Host.dotGeneral (F := Ideal) (Cert.Lib.matDot wf) none (biasRelu A B) W (ix2 ⟨r0 + p.val, by omega⟩ q) := by
  unfold k1_pay1
  refine (Cert.Lib.matmul_plain_zero_apply (a := 10000) (K := 48) (b := 48) (φ₁ := .bf16) (φ₂ := .bf16)
    dot_S10000x48_S48x48_S10000x48_1_0_0_1_n_n_wf none
    (truncf .bf16 (maximumf (addf (shapeCast S10000x48 x0 shapeCasts_S10000x48_S10000x48)
        (broadcastTo S10000x48 (shapeCast S1x48 x1 shapeCasts_S1x48_S1x48) broadcasts_S1x48_S10000x48))
      (broadcast S10000x48 (Scalar.ofBits (F := Ideal) .f32 0x00000000#32))) bitsLt_bf16_f32)
    (truncf .bf16 x2 bitsLt_bf16_f32) p q).trans ?_
  refine Eq.trans ?_ (Cert.Lib.dotGeneral_plain_apply (φ₁ := .f32) (φ₂ := .f32) wf none .single (biasRelu A B) W ⟨r0 + p.val, by omega⟩ q).symm
  refine Finset.sum_congr rfl fun k _ => ?_
  show FloatOps.maximumf (FloatOps.addf (shapeCast S10000x48 x0 shapeCasts_S10000x48_S10000x48 (ix2 p k))
        (broadcastTo S10000x48 (shapeCast S1x48 x1 shapeCasts_S1x48_S1x48) broadcasts_S1x48_S10000x48 (ix2 p k)))
      (Ideal.ofBits .f32 0x00000000#32) * x2 (ix2 k q)
    = biasRelu A B (ix2 ⟨r0 + p.val, by omega⟩ k) * W (ix2 k q)
  rw [shapeCast_self, shapeCast_self, broadcastTo_1b_ab_apply, h0, h1, h2, biasRelu_ix2]

/-- relu(A + b) · W of a 100000 × 48 array, a 1 × 48 row and a 48 × 48 array, as the host's dot_general states the product. -/
abbrev product (wf : DotDims.WF ⟨2, ![100000, 48]⟩ ⟨2, ![48, 48]⟩ ⟨2, ![100000, 48]⟩ [1] [0] [0] [1] [] [])
    (A : FVec Ideal ⟨2, ![100000, 48]⟩ .f32) (B : FVec Ideal ⟨2, ![1, 48]⟩ .f32) (W : FVec Ideal ⟨2, ![48, 48]⟩ .f32) :
    FVec Ideal ⟨2, ![100000, 48]⟩ .f32 :=
  Host.dotGeneral (F := Ideal) (Cert.Lib.matDot wf) none (biasRelu A B) W

/-! ## The ten blocks -/

/-- The printed index maps, decided over the grid: at point t the aggregated array's window is at row block t, column block 0;
    the bias row's and W2's windows do not move; the result's window is at row block t, column block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- WHAT POINT t WRITES BACK is block t of relu(A + b) · W2 of the three arrays the call was entered with. -/
theorem flushed_eq (wf : DotDims.WF ⟨2, ![100000, 48]⟩ ⟨2, ![48, 48]⟩ ⟨2, ![100000, 48]⟩ [1] [0] [0] [1] [] [])
    (c : Dev nD) (t : Fin cfg1.N) :
    (dat1 V c).flushed 3 t = ((cfg1.win 3).blk t).view.read (Elt Ideal)
      (product wf (V c main_v48) (V c main_v49) (V c main_arg5)) := by
  show (cfg1.win 3).cut (grid1.coords t) ((dat1 V c).after 3 t) = _
  rw [after1_3]
  unfold out1_3
  rw [View.canon_unit_zero hz]
  simp only [View.ld_unit_zero (S := S10000x48) hz, View.ld_unit_zero (S := S1x48) hz, View.ld_unit_zero (S := S48x48) hz]
  obtain ⟨e00, e01, e10, e11, e20, e21, e30, e31⟩ := idx_facts t
  have ht : t.val < 10 := by have := t.isLt; have hN : cfg1.N = 10 := N_1; omega
  funext j
  obtain ⟨p, q, rfl⟩ : ∃ (p : Fin 10000) (q : Fin 48), j = ix2 p q := ⟨j 0, j 1, eq_ix2 j⟩
  refine (block_entry wf (V c main_v48) (V c main_v49) (V c main_arg5) (iblk1 V c 0 t) (iblk1 V c 1 t) (iblk1 V c 2 t)
    (t.val * 10000) (by omega) ?_ ?_ ?_ p q).trans ?_
  · intro p k
    show V c main_v48 (((cfg1.win 0).blk t).view.emb (ix2 p k)) = V c main_v48 _
    refine congrArg (V c main_v48) (funext fun a => Fin.ext ?_)
    match a with
    | ⟨0, _⟩ => show win1_0.index t (0 : Fin 2) * 10000 + 1 * p.val = t.val * 10000 + p.val; rw [e00]; omega
    | ⟨1, _⟩ => show win1_0.index t (1 : Fin 2) * 48 + 1 * k.val = k.val; rw [e01]; omega
  · intro k
    show V c main_v49 (((cfg1.win 1).blk t).view.emb (ix2 (0 : Fin 1) k)) = V c main_v49 _
    refine congrArg (V c main_v49) (funext fun a => Fin.ext ?_)
    match a with
    | ⟨0, _⟩ => show win1_1.index t (0 : Fin 2) * 1 + 1 * 0 = 0; rw [e10]
    | ⟨1, _⟩ => show win1_1.index t (1 : Fin 2) * 48 + 1 * k.val = k.val; rw [e11]; omega
  · intro k q
    show V c main_arg5 (((cfg1.win 2).blk t).view.emb (ix2 k q)) = V c main_arg5 _
    refine congrArg (V c main_arg5) (funext fun a => Fin.ext ?_)
    match a with
    | ⟨0, _⟩ => show win1_2.index t (0 : Fin 2) * 48 + 1 * k.val = k.val; rw [e20]; omega
    | ⟨1, _⟩ => show win1_2.index t (1 : Fin 2) * 48 + 1 * q.val = q.val; rw [e21]; omega
  · show _ = product wf (V c main_v48) (V c main_v49) (V c main_arg5) (((cfg1.win 3).blk t).view.emb (ix2 p q))
    refine congrArg (product wf (V c main_v48) (V c main_v49) (V c main_arg5)) (funext fun a => Fin.ext ?_)
    match a with
    | ⟨0, _⟩ => show t.val * 10000 + p.val = win1_3.index t (0 : Fin 2) * 10000 + 1 * p.val; rw [e30]; omega
    | ⟨1, _⟩ => show q.val = win1_3.index t (1 : Fin 2) * 48 + 1 * q.val; rw [e31]; omega

/-- An index of the result is in point t's block iff each coordinate is in the block's range on its axis. -/
theorem mem_blk (t : Fin cfg1.N) (i : S100000x48.Idx) :
    i ∈ ((cfg1.win 3).blk t).view.set ↔ ∀ a : Fin 2, win1_3.index t a * S10000x48.size a ≤ (i a).val ∧ (i a).val < win1_3.index t a * S10000x48.size a + S10000x48.size a := by
  show i ∈ ((View.whole main_v50).slice (win1_3.rect t)).set ↔ _
  rw [View.set_slice_whole, Rect.mem_set_unit]
  exact Iff.rfl

/-- THE RESULT ARRAY after the call: relu(A + b) · W2 of the arrays the call was entered with. Row r lies in the block of
    point r / 10000, so the ten blocks cover the array. -/
theorem array_eq (wf : DotDims.WF ⟨2, ![100000, 48]⟩ ⟨2, ![48, 48]⟩ ⟨2, ![100000, 48]⟩ [1] [0] [0] [1] [] [])
    (c : Dev nD) :
    (dat1 V c).arrAt 3 cfg1.N
      = product wf (V c main_v48) (V c main_v49) (V c main_arg5) :=
  (dat1 V c).arrAt_eq_of_cover 3 _ (fun t _ => flushed_eq V wf c t) fun (i : S100000x48.Idx) => by
    have hN : cfg1.N = 10 := N_1
    have hi0 : (i 0).val < 100000 := (i 0).isLt
    have hi1 : (i 1).val < 48 := (i 1).isLt
    obtain ⟨t, ht⟩ : ∃ t : Fin cfg1.N, t.val = (i 0).val / 10000 := ⟨⟨(i 0).val / 10000, by rw [hN]; omega⟩, rfl⟩
    obtain ⟨-, -, -, -, -, -, e30, e31⟩ := idx_facts t
    refine ⟨t, flush1_3 t, ?_⟩
    rw [mem_blk]
    intro a
    match a with
    | ⟨0, _⟩ => show win1_3.index t (0 : Fin 2) * 10000 ≤ (i 0).val ∧ (i 0).val < win1_3.index t (0 : Fin 2) * 10000 + 10000; rw [e30, ht]; omega
    | ⟨1, _⟩ => show win1_3.index t (1 : Fin 2) * 48 ≤ (i 1).val ∧ (i 1).val < win1_3.index t (1 : Fin 2) * 48 + 48; rw [e31]; omega

end Cert.KernelIdeal.Product2

end
-- ==== Proof.Spec.lean ====
/-
  What the two programs share, stated once as functions of arrays, and the one place where they differ in order.

  Both programs aggregate a node array h over the self-loop-augmented edge list: row e of the message array is row
  rowSl[e] of h (an index below zero counted from the end) scaled by the edge's normalisation norm[e], and the messages are
  added into row colSl[e] of a zero array (`aggregate`). Both finish with the same readout of a 64 × 48 array z: z · Wl + bl,
  then the logistic function 1 / (1 + exp(−·)), as a vector of 64 (`readout`).

  In between, the kernel's program looks the 64 outfall rows up in the aggregated array FIRST and then adds the bias row
  and takes the positive part of those 64 rows (`rowsThenRelu`), while the reference adds the bias row to all 100000 rows,
  takes the positive part, and looks the 64 rows up LAST (`reluThenRows`). A row lookup only re-indexes — entry (r, k) of
  the result is entry (row(r), k) of the operand, row(r) the looked-up row clamped into range — and the bias and the
  positive part act on each entry by its column alone, so the two orders give the same array (`rows_commute`). No
  arithmetic law is used: both sides are max(a(row(r), k) + b(k), 0).
-/
import proofs.«140998_j61804579390070_2_alg».proof.Proof.Gen.KernelIdeal
import proofs.«140998_j61804579390070_2_alg».proof.Proof.Gen.ReferenceIdeal
import Idealize.ShloMosaic.Lib.ValueIdx
import Idealize.ShloMosaic.Lib.Pipeline.Value

set_option maxRecDepth 16384

noncomputable section

namespace Cert.Spec

open Cert.ReferenceIdeal Cert.ReferenceIdeal.Gen
open Idealize.ShloMosaic Idealize.ShloMosaic.ValueIdx

variable {F : FTy → Type} [FloatOps F]

/-- Edge endpoints as start indices for a row lookup: an endpoint below zero has 100000 added (a position counted from
    the end), and the vector is laid out as one column. -/
def wrapEdges (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- One layer's aggregation: the rows of h at the source endpoints, each scaled by its edge's normalisation, added into
    the rows of a zero array at the target endpoints. -/
def aggregate (h : FVec F S100000x48 .f32) (rowSl colSl : IVec S3300000 32) (nrm : FVec F S3300000 .f32) :
    FVec F S100000x48 .f32 :=
  Host.scatterAdd scatter_S100000x48_S3300000x1_S3300000x48_1_0_0_1
    (broadcastInDim S100000x48 ![] bcast_S_S100000x48 (constant S_ .f32 0x00000000#32))
    (broadcastInDim S3300000x1 ![0] bcast_S3300000_S3300000x1_0 colSl)
    (mulf (Host.gather gather_S100000x48_S3300000x1_S3300000x48_1_0_n_n_0_1_148 h (wrapEdges rowSl))
      (broadcastInDim S3300000x48 ![0, 1] bcast_S3300000x1_S3300000x48_0_1
        (broadcastInDim S3300000x1 ![0] bcast_S3300000_S3300000x1_0 nrm)))

/-- The 64 outfall node numbers as start indices for a row lookup (below zero: counted from the end), as one column. -/
def wrapOutfalls (idx : IVec S64 32) : IVec S64x1 32 :=
  broadcastInDim S64x1 ![0] bcast_S64_S64x1_0
    (select (cmpi .slt idx (broadcastInDim S64 ![] bcast_S_S64 (constantI S_ 32 0#32)))
      (addi idx (broadcastInDim S64 ![] bcast_S_S64 (constantI S_ 32 100000#32))) idx)

/-- The kernel's order: look the 64 rows up, then add the bias row and take the positive part. -/
def rowsThenRelu (a : FVec F S100000x48 .f32) (idx : IVec S64 32) (b : FVec F S48 .f32) : FVec F S64x48 .f32 :=
  maximumf
    (addf (Host.gather gather_S100000x48_S64x1_S64x48_1_0_n_n_0_1_148 a (wrapOutfalls idx))
      (broadcastInDim S64x48 ![0, 1] Cert.KernelIdeal.Facts₀.bcast_S1x48_S64x48_0_1 (broadcastInDim S1x48 ![1] bcast_S48_S1x48_1 b)))
    (broadcastInDim S64x48 ![] Cert.KernelIdeal.Facts₀.bcast_S_S64x48 (constant S_ .f32 0x00000000#32))

/-- The reference's order: add the bias row to every row and take the positive part, then look the 64 rows up. -/
def reluThenRows (a : FVec F S100000x48 .f32) (idx : IVec S64 32) (b : FVec F S48 .f32) : FVec F S64x48 .f32 :=
  Host.gather gather_S100000x48_S64x1_S64x48_1_0_n_n_0_1_148
    (maximumf
      (addf a (broadcastInDim S100000x48 ![0, 1] bcast_S1x48_S100000x48_0_1 (broadcastInDim S1x48 ![1] bcast_S48_S1x48_1 b)))
      (broadcastInDim S100000x48 ![] bcast_S_S100000x48 (constant S_ .f32 0x00000000#32)))
    (wrapOutfalls idx)

/-- The readout both programs end with: z · Wl + bl through the logistic function, as a vector of 64. -/
def readout (z : FVec F S64x48 .f32) (Wl : FVec F S48x1 .f32) (bl : FVec F S1 .f32) : FVec F S64 .f32 :=
  shapeCast S64
    (Host.divf (broadcastInDim S64x1 ![] bcast_S_S64x1 (constant S_ .f32 0x3F800000#32))
      (addf (broadcastInDim S64x1 ![] bcast_S_S64x1 (constant S_ .f32 0x3F800000#32))
        (Host.exp (Host.negf (addf (Host.dotGeneral dot_S64x48_S48x1_S64x1_1_0_0_1_n_n none z Wl)
          (broadcastInDim S64x1 ![0, 1] bcast_S1x1_S64x1_0_1 (broadcastInDim S1x1 ![1] bcast_S1_S1x1_1 bl)))))))
    shapeCasts_S64x1_S64

/-! ## A row lookup commutes with what acts on each entry by its column -/

/-- Under the dimension numbers of the row lookup (the operand's axis 0 collapsed and indexed, its axis 1 kept whole), the
    operand index's column is the result index's column. -/
theorem rowLookup_col {w : ℕ} (I : IVec S64x1 w) (j : S64x48.Idx) :
    ((gather_S100000x48_S64x1_S64x48_1_0_n_n_0_1_148.operandIdx j I) 1).val = (j 1).val := by
  show gather_S100000x48_S64x1_S64x48_1_0_n_n_0_1_148.start j I 1
      + gather_S100000x48_S64x1_S64x48_1_0_n_n_0_1_148.batchCoord j 1
      + gather_S100000x48_S64x1_S64x48_1_0_n_n_0_1_148.offCoord j 1 = (j 1).val
  rw [GatherDims.batchCoord_eq_zero _ _ _ (List.not_mem_nil)]
  unfold GatherDims.start
  rw [dif_neg (show (1 : Fin 2) ∉ gather_S100000x48_S64x1_S64x48_1_0_n_n_0_1_148.startIndexMap from by decide)]
  unfold GatherDims.offCoord
  rw [dif_pos (show (1 : Fin 2) ∈ gather_S100000x48_S64x1_S64x48_1_0_n_n_0_1_148.sKept from by decide)]
  simp only [Nat.zero_add, Nat.add_zero]
  rfl

/-- A vector of 48 laid as one row and repeated over R rows reads, at (r, k), the vector's entry k. -/
theorem biasRows_apply {α : Type} {R : ℕ} (h1 : S48.BroadcastsInDim S1x48 (![1] : Fin 1 → Fin 2))
    (h2 : S1x48.BroadcastsInDim ⟨2, ![R, 48]⟩ (![0, 1] : Fin 2 → Fin 2)) (b : S48.Idx → α) (j : (⟨2, ![R, 48]⟩ : Shape).Idx) :
    broadcastInDim ⟨2, ![R, 48]⟩ ![0, 1] h2 (broadcastInDim S1x48 ![1] h1 b) j = b (ix1 ⟨(j 1).val, idx2_lt1 j⟩) := by
  refine (broadcastInDim_apply _ h2 _ j (ix2 (0 : Fin 1) (⟨(j 1).val, idx2_lt1 j⟩ : Fin 48)) (fun a => ?_)).trans ?_
  · match a with
    | ⟨0, _⟩ => show (0 : ℕ) = if (1 : Nat) = 1 then 0 else (j 0).val; rw [if_pos rfl]
    | ⟨1, _⟩ => show (j 1).val = if (48 : Nat) = 1 then 0 else (j 1).val; rw [if_neg (by decide)]
  · refine broadcastInDim_apply _ h1 b _ (ix1 (⟨(j 1).val, idx2_lt1 j⟩ : Fin 48)) (fun a => ?_)
    match a with
    | ⟨0, _⟩ => show (j 1).val = if (48 : Nat) = 1 then 0 else (j 1).val; rw [if_neg (by decide)]

/-- A scalar repeated over a shape reads the scalar everywhere. -/
theorem scalarFill_apply {α : Type} {s : Shape} (h : S_.BroadcastsInDim s (![] : Fin 0 → Fin s.rank)) (x : S_.Idx → α) (j : s.Idx) :
    broadcastInDim s ![] h x j = x ix0 :=
  broadcastInDim_apply _ h x j ix0 (fun a => a.elim0)

/-- THE TWO ORDERS AGREE: both arrays hold max(a(row(r), k) + b(k), 0) at (r, k). -/
theorem rows_commute (a : FVec F S100000x48 .f32) (idx : IVec S64 32) (b : FVec F S48 .f32) :
    rowsThenRelu a idx b = reluThenRows a idx b := by
  funext j
  unfold rowsThenRelu reluThenRows
  show FloatOps.maximumf
      (FloatOps.addf (a (gather_S100000x48_S64x1_S64x48_1_0_n_n_0_1_148.operandIdx j (wrapOutfalls idx)))
        (broadcastInDim S64x48 ![0, 1] Cert.KernelIdeal.Facts₀.bcast_S1x48_S64x48_0_1 (broadcastInDim S1x48 ![1] bcast_S48_S1x48_1 b) j))
      (broadcastInDim S64x48 ![] Cert.KernelIdeal.Facts₀.bcast_S_S64x48 (constant S_ .f32 0x00000000#32) j)
    = FloatOps.maximumf
      (FloatOps.addf (a (gather_S100000x48_S64x1_S64x48_1_0_n_n_0_1_148.operandIdx j (wrapOutfalls idx)))
        (broadcastInDim S100000x48 ![0, 1] bcast_S1x48_S100000x48_0_1 (broadcastInDim S1x48 ![1] bcast_S48_S1x48_1 b)
          (gather_S100000x48_S64x1_S64x48_1_0_n_n_0_1_148.operandIdx j (wrapOutfalls idx))))
      (broadcastInDim S100000x48 ![] bcast_S_S100000x48 (constant S_ .f32 0x00000000#32)
        (gather_S100000x48_S64x1_S64x48_1_0_n_n_0_1_148.operandIdx j (wrapOutfalls idx)))
  rw [biasRows_apply (R := 64), biasRows_apply (R := 100000), scalarFill_apply, scalarFill_apply]
  have hc := rowLookup_col (wrapOutfalls idx) j
  have he : (⟨((gather_S100000x48_S64x1_S64x48_1_0_n_n_0_1_148.operandIdx j (wrapOutfalls idx)) 1).val, idx2_lt1 _⟩ : Fin 48)
      = ⟨(j 1).val, idx2_lt1 j⟩ := Fin.ext hc
  rw [he]

end Cert.Spec

end
-- ==== Proof.KernelValue.lean ====
/-
  What the idealized kernel's program leaves in its result buffer, as a function of the nine argument arrays.

  The program's buffer contents at each boundary between segments are a fold from the launch memory. Read at the few
  buffers that matter, boundary by boundary:
    * entering the first product, the edge list with self loops (source and target endpoints) and the normalisation
      norm[e] = dis[row e] · dis[col e] have been computed from edge_index alone, and the arguments are as launched;
    * the first product leaves x · W1 in its result array;
    * the next stretch aggregates it over the edges and lays b1 out as one row;
    * the second product leaves relu(agg1 + b1) · W2;
    * the last stretch aggregates that, looks up the 64 outfall rows, adds b2, takes the positive part, and applies the
      readout.
  Every other buffer a later stretch reads (the edge endpoints, the normalisation, the arguments) is untouched by the
  segments in between and is read back through them.
-/
import proofs.«140998_j61804579390070_2_alg».proof.Proof.Gen.KernelIdeal.Frame
import proofs.«140998_j61804579390070_2_alg».proof.Proof.Region0
import proofs.«140998_j61804579390070_2_alg».proof.Proof.Region1
import proofs.«140998_j61804579390070_2_alg».proof.Proof.Spec
import proofs.«140998_j61804579390070_2_alg».proof.Proof.RefRead
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Cert.ReferenceIdeal.Read (val_main_v6 val_main_v7 val_main_v35)

/-! The stretches of host operations are read at any float type (nothing in them is opened); the two products and the
    assembly are at the extended reals. -/

section AnyFloat

variable {F : FTy → Type} [FloatOps F]
variable (m : (ℓ : Loc nD τ sig) → Buf (Elt F) ℓ) (ρ : Dev nD → PrngReg)

/-- A buffer's contents after a stretch of host operations, read off the operations one by one. -/
local macro "host_read" : tactic =>
  `(tactic| (dsimp only [W7, W5, W3, W2, W1, W0, hostOps0, hostOps0_1, hostOps0_2, hostOps1, hostOps2]; after_results_simp <;> rfl))

/-! ## Entering the first product -/

theorem in0_rowSl (c : Dev nD) : (W3 m ρ c (Proc.devRef .tc main_v5) : S3300000.Idx → BitVec 32)
    = val_main_v6 (F := F) (m ((c.tc : Thread nD τ).loc main_arg1)) := by host_read
theorem in0_colSl (c : Dev nD) : (W3 m ρ c (Proc.devRef .tc main_v6) : S3300000.Idx → BitVec 32)
    = val_main_v7 (F := F) (m ((c.tc : Thread nD τ).loc main_arg1)) := by host_read
theorem in0_norm (c : Dev nD) : (W3 m ρ c (Proc.devRef .tc main_v34) : S3300000.Idx → F .f32)
    = val_main_v35 (F := F) (m ((c.tc : Thread nD τ).loc main_arg1)) := by host_read
theorem in0_arg0 (c : Dev nD) : W3 m ρ c (Proc.devRef .tc main_arg0) = m ((c.tc : Thread nD τ).loc main_arg0) := by host_read
theorem in0_arg2 (c : Dev nD) : W3 m ρ c (Proc.devRef .tc main_arg2) = m ((c.tc : Thread nD τ).loc main_arg2) := by host_read
theorem in0_arg3 (c : Dev nD) : W3 m ρ c (Proc.devRef .tc main_arg3) = m ((c.tc : Thread nD τ).loc main_arg3) := by host_read
theorem in0_arg4 (c : Dev nD) : W3 m ρ c (Proc.devRef .tc main_arg4) = m ((c.tc : Thread nD τ).loc main_arg4) := by host_read
theorem in0_arg5 (c : Dev nD) : W3 m ρ c (Proc.devRef .tc main_arg5) = m ((c.tc : Thread nD τ).loc main_arg5) := by host_read
theorem in0_arg6 (c : Dev nD) : W3 m ρ c (Proc.devRef .tc main_arg6) = m ((c.tc : Thread nD τ).loc main_arg6) := by host_read
theorem in0_arg7 (c : Dev nD) : W3 m ρ c (Proc.devRef .tc main_arg7) = m ((c.tc : Thread nD τ).loc main_arg7) := by host_read
theorem in0_arg8 (c : Dev nD) : W3 m ρ c (Proc.devRef .tc main_arg8) = m ((c.tc : Thread nD τ).loc main_arg8) := by host_read

/-! ## Leaving the first product -/

theorem out0_rowSl (c : Dev nD) : W4 m ρ c (Proc.devRef .tc main_v5) = W3 m ρ c (Proc.devRef .tc main_v5) := W4_of_ne m ρ c main_v5 (by decide)
theorem out0_colSl (c : Dev nD) : W4 m ρ c (Proc.devRef .tc main_v6) = W3 m ρ c (Proc.devRef .tc main_v6) := W4_of_ne m ρ c main_v6 (by decide)
theorem out0_norm (c : Dev nD) : W4 m ρ c (Proc.devRef .tc main_v34) = W3 m ρ c (Proc.devRef .tc main_v34) := W4_of_ne m ρ c main_v34 (by decide)
theorem out0_arg2 (c : Dev nD) : W4 m ρ c (Proc.devRef .tc main_arg2) = W3 m ρ c (Proc.devRef .tc main_arg2) := W4_of_ne m ρ c main_arg2 (by decide)
theorem out0_arg4 (c : Dev nD) : W4 m ρ c (Proc.devRef .tc main_arg4) = W3 m ρ c (Proc.devRef .tc main_arg4) := W4_of_ne m ρ c main_arg4 (by decide)
theorem out0_arg5 (c : Dev nD) : W4 m ρ c (Proc.devRef .tc main_arg5) = W3 m ρ c (Proc.devRef .tc main_arg5) := W4_of_ne m ρ c main_arg5 (by decide)
theorem out0_arg6 (c : Dev nD) : W4 m ρ c (Proc.devRef .tc main_arg6) = W3 m ρ c (Proc.devRef .tc main_arg6) := W4_of_ne m ρ c main_arg6 (by decide)
theorem out0_arg7 (c : Dev nD) : W4 m ρ c (Proc.devRef .tc main_arg7) = W3 m ρ c (Proc.devRef .tc main_arg7) := W4_of_ne m ρ c main_arg7 (by decide)
theorem out0_arg8 (c : Dev nD) : W4 m ρ c (Proc.devRef .tc main_arg8) = W3 m ρ c (Proc.devRef .tc main_arg8) := W4_of_ne m ρ c main_arg8 (by decide)

/-! ## Entering the second product -/

theorem in1_agg (c : Dev nD) : (W5 m ρ c (Proc.devRef .tc main_v48) : S100000x48.Idx → F .f32)
    = Cert.Spec.aggregate (F := F) (W4 m ρ c (Proc.devRef .tc main_v35)) (W4 m ρ c (Proc.devRef .tc main_v5))
        (W4 m ρ c (Proc.devRef .tc main_v6)) (W4 m ρ c (Proc.devRef .tc main_v34)) := by host_read
theorem in1_biasRow (c : Dev nD) : (W5 m ρ c (Proc.devRef .tc main_v49) : S1x48.Idx → F .f32)
    = shapeCast S1x48 (W4 m ρ c (Proc.devRef .tc main_arg4) : S48.Idx → F .f32) shapeCasts_S48_S1x48 := by host_read
theorem in1_rowSl (c : Dev nD) : W5 m ρ c (Proc.devRef .tc main_v5) = W4 m ρ c (Proc.devRef .tc main_v5) := by host_read
theorem in1_colSl (c : Dev nD) : W5 m ρ c (Proc.devRef .tc main_v6) = W4 m ρ c (Proc.devRef .tc main_v6) := by host_read
theorem in1_norm (c : Dev nD) : W5 m ρ c (Proc.devRef .tc main_v34) = W4 m ρ c (Proc.devRef .tc main_v34) := by host_read
theorem in1_arg2 (c : Dev nD) : W5 m ρ c (Proc.devRef .tc main_arg2) = W4 m ρ c (Proc.devRef .tc main_arg2) := by host_read
theorem in1_arg5 (c : Dev nD) : W5 m ρ c (Proc.devRef .tc main_arg5) = W4 m ρ c (Proc.devRef .tc main_arg5) := by host_read
theorem in1_arg6 (c : Dev nD) : W5 m ρ c (Proc.devRef .tc main_arg6) = W4 m ρ c (Proc.devRef .tc main_arg6) := by host_read
theorem in1_arg7 (c : Dev nD) : W5 m ρ c (Proc.devRef .tc main_arg7) = W4 m ρ c (Proc.devRef .tc main_arg7) := by host_read
theorem in1_arg8 (c : Dev nD) : W5 m ρ c (Proc.devRef .tc main_arg8) = W4 m ρ c (Proc.devRef .tc main_arg8) := by host_read

/-! ## Leaving the second product -/

theorem out1_rowSl (c : Dev nD) : W6 m ρ c (Proc.devRef .tc main_v5) = W5 m ρ c (Proc.devRef .tc main_v5) := W6_of_ne m ρ c main_v5 (by decide)
theorem out1_colSl (c : Dev nD) : W6 m ρ c (Proc.devRef .tc main_v6) = W5 m ρ c (Proc.devRef .tc main_v6) := W6_of_ne m ρ c main_v6 (by decide)
theorem out1_norm (c : Dev nD) : W6 m ρ c (Proc.devRef .tc main_v34) = W5 m ρ c (Proc.devRef .tc main_v34) := W6_of_ne m ρ c main_v34 (by decide)
theorem out1_arg2 (c : Dev nD) : W6 m ρ c (Proc.devRef .tc main_arg2) = W5 m ρ c (Proc.devRef .tc main_arg2) := W6_of_ne m ρ c main_arg2 (by decide)
theorem out1_arg6 (c : Dev nD) : W6 m ρ c (Proc.devRef .tc main_arg6) = W5 m ρ c (Proc.devRef .tc main_arg6) := W6_of_ne m ρ c main_arg6 (by decide)
theorem out1_arg7 (c : Dev nD) : W6 m ρ c (Proc.devRef .tc main_arg7) = W5 m ρ c (Proc.devRef .tc main_arg7) := W6_of_ne m ρ c main_arg7 (by decide)
theorem out1_arg8 (c : Dev nD) : W6 m ρ c (Proc.devRef .tc main_arg8) = W5 m ρ c (Proc.devRef .tc main_arg8) := W6_of_ne m ρ c main_arg8 (by decide)

/-! ## The last stretch -/

theorem last_result (c : Dev nD) : (W7 m ρ c (Proc.devRef .tc main_v86) : S64.Idx → F .f32)
    = Cert.Spec.readout (F := F)
        (Cert.Spec.rowsThenRelu
          (Cert.Spec.aggregate (W6 m ρ c (Proc.devRef .tc main_v50)) (W6 m ρ c (Proc.devRef .tc main_v5))
            (W6 m ρ c (Proc.devRef .tc main_v6)) (W6 m ρ c (Proc.devRef .tc main_v34)))
          (W6 m ρ c (Proc.devRef .tc main_arg2)) (W6 m ρ c (Proc.devRef .tc main_arg6)))
        (W6 m ρ c (Proc.devRef .tc main_arg7)) (W6 m ρ c (Proc.devRef .tc main_arg8)) := by host_read

end AnyFloat

/-! ## The two products, and the result from the arguments -/

variable (m : (ℓ : Loc nD τ sig) → Buf (Elt Ideal) ℓ) (ρ : Dev nD → PrngReg)

theorem out0_product (wf : DotDims.WF ⟨2, ![100000, 64]⟩ ⟨2, ![64, 48]⟩ ⟨2, ![100000, 48]⟩ [1] [0] [0] [1] [] []) (c : Dev nD) :
    W4 m ρ c (Proc.devRef .tc main_v35)
      = Product1.product wf (m ((c.tc : Thread nD τ).loc main_arg0)) (m ((c.tc : Thread nD τ).loc main_arg3)) := by
  refine (W4_arr m ρ c 2).trans ((Product1.array_eq (V3 m ρ) wf c).trans ?_)
  show Product1.product wf (W3 m ρ c (Proc.devRef .tc main_arg0)) (W3 m ρ c (Proc.devRef .tc main_arg3)) = _
  rw [in0_arg0, in0_arg3]

theorem out1_product (wf : DotDims.WF ⟨2, ![100000, 48]⟩ ⟨2, ![48, 48]⟩ ⟨2, ![100000, 48]⟩ [1] [0] [0] [1] [] []) (c : Dev nD) :
    W6 m ρ c (Proc.devRef .tc main_v50)
      = Product2.product wf (W5 m ρ c (Proc.devRef .tc main_v48)) (W5 m ρ c (Proc.devRef .tc main_v49)) (W5 m ρ c (Proc.devRef .tc main_arg5)) :=
  (W6_arr m ρ c 3).trans (Product2.array_eq (V5 m ρ) wf c)

/-- The kernel's function of the nine argument arrays (edge_index enters through the reference's own stage functions for
    the endpoints and the normalisation, which the kernel's first stretches compute by the same operations). -/
def result (wf0 : DotDims.WF ⟨2, ![100000, 64]⟩ ⟨2, ![64, 48]⟩ ⟨2, ![100000, 48]⟩ [1] [0] [0] [1] [] [])
    (wf1 : DotDims.WF ⟨2, ![100000, 48]⟩ ⟨2, ![48, 48]⟩ ⟨2, ![100000, 48]⟩ [1] [0] [0] [1] [] [])
    (x0 : FVec Ideal ⟨2, ![100000, 64]⟩ .f32) (x1 : IVec Cert.ReferenceIdeal.S2x3200000 32) (x2 : IVec Cert.ReferenceIdeal.S64 32)
    (x3 : FVec Ideal ⟨2, ![64, 48]⟩ .f32) (x4 : FVec Ideal Cert.ReferenceIdeal.S48 .f32) (x5 : FVec Ideal ⟨2, ![48, 48]⟩ .f32)
    (x6 : FVec Ideal Cert.ReferenceIdeal.S48 .f32) (x7 : FVec Ideal Cert.ReferenceIdeal.S48x1 .f32) (x8 : FVec Ideal Cert.ReferenceIdeal.S1 .f32) :
    FVec Ideal Cert.ReferenceIdeal.S64 .f32 :=
  Cert.Spec.readout
    (Cert.Spec.rowsThenRelu
      (Cert.Spec.aggregate
        (Product2.product wf1
          (Cert.Spec.aggregate (Product1.product wf0 x0 x3) (val_main_v6 (F := Ideal) x1) (val_main_v7 (F := Ideal) x1) (val_main_v35 (F := Ideal) x1))
          (shapeCast S1x48 x4 shapeCasts_S48_S1x48) x5)
        (val_main_v6 (F := Ideal) x1) (val_main_v7 (F := Ideal) x1) (val_main_v35 (F := Ideal) x1))
      x2 x6)
    x7 x8

theorem result_eq (wf0 : DotDims.WF ⟨2, ![100000, 64]⟩ ⟨2, ![64, 48]⟩ ⟨2, ![100000, 48]⟩ [1] [0] [0] [1] [] [])
    (wf1 : DotDims.WF ⟨2, ![100000, 48]⟩ ⟨2, ![48, 48]⟩ ⟨2, ![100000, 48]⟩ [1] [0] [0] [1] [] []) (c : Dev nD) :
    (W7 m ρ c (Proc.devRef .tc main_v86) : S64.Idx → Ideal .f32)
      = result wf0 wf1 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  rw [last_result, out1_product m ρ wf1, in1_agg, in1_biasRow, out0_product m ρ wf0]
  rw [out1_rowSl, out1_colSl, out1_norm, out1_arg2, out1_arg6, out1_arg7, out1_arg8]
  rw [in1_rowSl, in1_colSl, in1_norm, in1_arg2, in1_arg5, in1_arg6, in1_arg7, in1_arg8]
  rw [out0_rowSl, out0_colSl, out0_norm, out0_arg2, out0_arg4, out0_arg5, out0_arg6, out0_arg7, out0_arg8]
  rw [in0_rowSl, in0_colSl, in0_norm, in0_arg2, in0_arg4, in0_arg5, in0_arg6, in0_arg7, in0_arg8]
  rfl

end Cert.KernelIdeal.HostValue

end
-- ==== Proof.Bridge.lean ====
/-
  The reference's result is the kernel's function of the arguments.

  The reference computes, in order: x · W1; the edge data; the first aggregation; + b1 over every row and the positive
  part; · W2; the edge data a second time (the same operations on the same edge_index); the second aggregation; + b2 over
  every row and the positive part; the 64 outfall rows; the readout. Read against the shared functions:
    * its two aggregations are `Spec.aggregate` of the product before them and the edge data, and its second copy of the
      edge data equals the first, operation for operation;
    * x · W1 is the first pallas_call's product, its dimension numbers being those of a plain product;
    * relu(agg1 + b1), with b1 broadcast over the rows, is the array the second pallas_call multiplies by W2, where b1
      arrives as one row: at (r, k) both are max(agg1(r, k) + b1(k), 0);
    * the end is `Spec.readout` of the 64 rows, looked up after the bias and the positive part — which is the kernel's
      order, by `Spec.rows_commute`.
-/
import proofs.«140998_j61804579390070_2_alg».proof.Proof.KernelValue
import Idealize.ShloMosaic.Lib.ValueLayout

set_option maxRecDepth 16384

noncomputable section

namespace Cert.Bridge

open Cert.ReferenceIdeal Cert.ReferenceIdeal.Gen Cert.ReferenceIdeal.Read
open Idealize.ShloMosaic Idealize.ShloMosaic.ValueIdx
open Idealize.ShloMosaic.TcCoe Idealize.SL.Sem
open Cert.KernelIdeal (Product1.product Product2.product Product2.biasRelu)

/-! The reference's stage functions are compared with the shared functions at any float type (nothing in them is opened);
    the two products and the bias row are at the extended reals. -/

section AnyFloat

variable {F : FTy → Type} [FloatOps F]
variable (x0 : FVec F S100000x64 .f32) (x1 : IVec S2x3200000 32) (x2 : IVec S64 32) (x3 : FVec F S64x48 .f32)
  (x4 : FVec F S48 .f32) (x5 : FVec F S48x48 .f32) (x6 : FVec F S48 .f32) (x7 : FVec F S48x1 .f32)
  (x8 : FVec F S1 .f32)

/-! ## The edge data, computed twice -/

theorem rowSl_again : val_main_v55 (F := F) x1 = val_main_v6 (F := F) x1 := rfl
theorem colSl_again : val_main_v56 (F := F) x1 = val_main_v7 (F := F) x1 := rfl
theorem norm_again : val_main_v84 (F := F) x1 = val_main_v35 (F := F) x1 := rfl

/-! ## The two aggregations and the end -/

theorem layer1 : val_main_v48 (F := F) x0 x1 x3
    = Cert.Spec.aggregate (val_main_v4 (F := F) x0 x3) (val_main_v6 (F := F) x1) (val_main_v7 (F := F) x1) (val_main_v35 (F := F) x1) := rfl

theorem layer2 : val_main_v97 (F := F) x0 x1 x3 x4 x5
    = Cert.Spec.aggregate (val_main_v53 (F := F) x0 x1 x3 x4 x5) (val_main_v55 (F := F) x1) (val_main_v56 (F := F) x1) (val_main_v84 (F := F) x1) := rfl

theorem ending : val_main_v119 (F := F) x0 x1 x2 x3 x4 x5 x6 x7 x8
    = Cert.Spec.readout (Cert.Spec.reluThenRows (val_main_v97 (F := F) x0 x1 x3 x4 x5) x2 x6) x7 x8 := rfl

end AnyFloat

variable (x0 : FVec Ideal S100000x64 .f32) (x1 : IVec S2x3200000 32) (x2 : IVec S64 32) (x3 : FVec Ideal S64x48 .f32)
  (x4 : FVec Ideal S48 .f32) (x5 : FVec Ideal S48x48 .f32) (x6 : FVec Ideal S48 .f32) (x7 : FVec Ideal S48x1 .f32)
  (x8 : FVec Ideal S1 .f32)

/-! ## The two products -/

theorem product1_ref : val_main_v4 (F := Ideal) x0 x3
    = Product1.product dot_S100000x64_S64x48_S100000x48_1_0_0_1_n_n_wf x0 x3 := rfl

/-- relu(A + b) with the bias broadcast over the rows is the array the second pallas_call multiplies, the bias arriving there
    as one row: at (r, k) both are max(A(r, k) + b(k), 0). -/
theorem biasRelu_ref (A : FVec Ideal S100000x48 .f32) :
    Product2.biasRelu A (shapeCast S1x48 x4 Cert.KernelIdeal.Facts₀.shapeCasts_S48_S1x48)
      = maximumf (addf A (val_main_v50 (F := Ideal) x4)) (val_main_call1_v0 (F := Ideal)) := by
  funext i
  obtain ⟨r, k, rfl⟩ : ∃ (r : Fin 100000) (k : Fin 48), i = ix2 r k := ⟨i 0, i 1, eq_ix2 i⟩
  rw [Cert.KernelIdeal.Product2.biasRelu_ix2]
  show FloatOps.maximumf (FloatOps.addf (A (ix2 r k)) (shapeCast S1x48 x4 Cert.KernelIdeal.Facts₀.shapeCasts_S48_S1x48 (ix2 (0 : Fin 1) k)))
      (Ideal.ofBits .f32 0x00000000#32)
    = FloatOps.maximumf (FloatOps.addf (A (ix2 r k)) (val_main_v50 (F := Ideal) x4 (ix2 r k))) (val_main_call1_v0 (F := Ideal) (ix2 r k))
  rw [shapeCast_a_1a_apply (a := 48)]
  unfold val_main_v50 val_main_v49 val_main_call1_v0 val_main_call1_cst
  rw [Cert.Spec.biasRows_apply (R := 100000), Cert.Spec.scalarFill_apply]
  rfl

theorem product2_ref : val_main_v53 (F := Ideal) x0 x1 x3 x4 x5
    = Product2.product dot_S100000x48_S48x48_S100000x48_1_0_0_1_n_n_wf (val_main_v48 (F := Ideal) x0 x1 x3)
        (shapeCast S1x48 x4 Cert.KernelIdeal.Facts₀.shapeCasts_S48_S1x48) x5 := by
  show Host.dotGeneral (F := Ideal) dot_S100000x48_S48x48_S100000x48_1_0_0_1_n_n none
      (maximumf (addf (val_main_v48 (F := Ideal) x0 x1 x3) (val_main_v50 (F := Ideal) x4)) (val_main_call1_v0 (F := Ideal))) x5
    = Host.dotGeneral (F := Ideal) (Cert.Lib.matDot dot_S100000x48_S48x48_S100000x48_1_0_0_1_n_n_wf) none
      (Product2.biasRelu (val_main_v48 (F := Ideal) x0 x1 x3) (shapeCast S1x48 x4 Cert.KernelIdeal.Facts₀.shapeCasts_S48_S1x48)) x5
  rw [biasRelu_ref]
  rfl

/-! ## The two values -/

/-- The kernel's function of the arguments is the reference's. -/
theorem values_agree :
    Cert.KernelIdeal.HostValue.result dot_S100000x64_S64x48_S100000x48_1_0_0_1_n_n_wf dot_S100000x48_S48x48_S100000x48_1_0_0_1_n_n_wf
        x0 x1 x2 x3 x4 x5 x6 x7 x8
      = val_main_v119 (F := Ideal) x0 x1 x2 x3 x4 x5 x6 x7 x8 := by
  unfold Cert.KernelIdeal.HostValue.result
  rw [ending, ← Cert.Spec.rows_commute, layer2, rowSl_again, colSl_again, norm_again, product2_ref, layer1, product1_ref]

/-- THE KERNEL'S RESULT BUFFER at the end of its run holds the reference's function of the kernel's argument arrays. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.W7 m ρ c (Proc.devRef .tc Cert.KernelIdeal.main_v86) : S64.Idx → Ideal .f32)
      = val_main_v119 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) :=
  (Cert.KernelIdeal.HostValue.result_eq m ρ dot_S100000x64_S64x48_S100000x48_1_0_0_1_n_n_wf
    dot_S100000x48_S48x48_S100000x48_1_0_0_1_n_n_wf c).trans (values_agree _ _ _ _ _ _ _ _ _)

end Cert.Bridge

end
-- ==== Proof.lean ====
/-
  The certificate of a two-layer graph convolution with a readout at 64 outfall nodes: a kernel program with two
  pallas_calls among host operations, against a plain reference.

  Both programs compute, from node features x, an edge list, 64 outfall node numbers and the weights W1, b1, W2, b2, Wl, bl,
      sigmoid( relu( Â · relu(Â · (x W1) + b1) W2 + b2 )[outfall] · Wl + bl ),
  where Â · h stands for the normalised aggregation over the edge list with self loops: message e is row src(e) of h scaled
  by dis(src e) · dis(dst e), dis = deg^(−1/2) where deg > 0 and 0 elsewhere, and the messages are added into row dst(e).

  The kernel's program differs from the reference in three ways, none of which changes the value on the extended reals:
    * x W1 and relu(· + b1) W2 are computed by pallas_calls in ten row blocks of 10000 on the matrix unit, with operands
      narrowed to bf16 (a change of format is the identity there) — each leaves the whole product in its result array
      (Proof/Region0.lean, Proof/Region1.lean);
    * the edge data (endpoints with self loops, normalisation) is computed once and used by both layers, where the
      reference computes it once per layer by the same operations (Proof/Bridge.lean);
    * the 64 outfall rows are looked up BEFORE + b2 and the positive part, where the reference looks them up after; a row
      lookup only re-indexes and the bias and the positive part act on each entry by its column, so the two orders agree
      (Proof/Spec.lean `rows_commute`).
  No arithmetic law beyond "the same operations on equal operands" is needed, and the precondition is never opened.

  The three frames: the two kernel programs run by their generated frame certificates; the reference has no kernel and
  its frame is its run with the result forgotten. The idealization rewrote no operation, so `preserves` has nothing to
  state. For `algebraic`, the kernel's run is read at its result buffer (Proof/KernelRun.lean), the contents there are
  computed boundary by boundary (Proof/KernelValue.lean) and shown to be the reference's function of the arguments
  (Proof/Bridge.lean); the reference's run states its result as that function.
-/
import proofs.«140998_j61804579390070_2_alg».proof.Defs
import proofs.«140998_j61804579390070_2_alg».proof.Proof.Gen.Kernel
import proofs.«140998_j61804579390070_2_alg».proof.Proof.Gen.Kernel.Frame
import proofs.«140998_j61804579390070_2_alg».proof.Proof.Gen.KernelIdeal
import proofs.«140998_j61804579390070_2_alg».proof.Proof.Gen.KernelIdeal.Frame
import proofs.«140998_j61804579390070_2_alg».proof.Proof.Gen.ReferenceIdeal
import proofs.«140998_j61804579390070_2_alg».proof.Proof.Gen.Pre_finite_inputs
import proofs.«140998_j61804579390070_2_alg».proof.Proof.KernelRun
import proofs.«140998_j61804579390070_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with their result at the reference's function of the (agreeing) argument arrays. -/
theorem algebraic : Cert.algebraic_KernelIdeal_ReferenceIdeal := by
  intro m ρ m' ρ' _ hagree
  refine ⟨fun c => Cert.ReferenceIdeal.Read.val_main_v119 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.Bridge.kernel_result m ρ c), (h c).2⟩)
      (Cert.KernelIdeal.RunValue.run_last (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v119_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
